-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x128 : Shape := ⟨2, ![1000000, 128]⟩
abbrev S128x128 : Shape := ⟨2, ![128, 128]⟩
abbrev S128 : Shape := ⟨1, ![128]⟩
abbrev S_ : Shape := ⟨0, ![]⟩

class Facts : Prop where
  bcast_S_S1000000x128 : S_.BroadcastsInDim S1000000x128 (![] : Fin 0 → Fin S1000000x128.rank)
  reducesTo_S1000000x128_S_d0_1 : S1000000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128x128 .f32) (main_arg5 : FVec F S128x128 .f32) (main_arg6 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S1000000x128 .f32) (main_arg1 : FVec F S1000000x128 .f32) (main_arg2 : FVec F S128x128 .f32) (main_arg3 : FVec F S128x128 .f32) (main_arg4 : FVec F S128x128 .f32) (main_arg5 : FVec F S128x128 .f32) (main_arg6 : FVec F S128 .f32) : IVec S_ 1 :=
  let main_v0 : FVec F S1000000x128 .f32 := Host.absf main_arg0
  let main_cst : FVec F S_ .f32 := constant S_ .f32 0x7F800000#32
  let main_v1 : FVec F S1000000x128 .f32 := broadcastInDim S1000000x128 ![] bcast_S_S1000000x128 main_cst
  let main_v2 : IVec S1000000x128 1 := cmpf .olt main_v0 main_v1
  let main_c : IVec S_ 1 := constantI S_ 1 1#1
  let main_v3 : IVec S_ 1 := (fun x v => Host.reduce IntOp.andi x v reducesTo_S1000000x128_S_d0_1 h_S_) main_v2 main_c
  let main_v4 : FVec F S1000000x128 .f32 := Host.absf main_arg1
  let main_cst_0 : FVec F S_ .f32 := constant S_ .f32 0x7F800000#32
  let main_v5 : FVec F S1000000x128 .f32 := broadcastInDim S1000000x128 ![] bcast_S_S1000000x128 main_cst_0
  let main_v6 : IVec S1000000x128 1 := cmpf .olt main_v4 main_v5
  let main_c_1 : IVec S_ 1 := constantI S_ 1 1#1
  let main_v7 : IVec S_ 1 := (fun x v => Host.reduce IntOp.andi x v reducesTo_S1000000x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_v13 main_v16
-- ==== Kernel.lean ====
abbrev S1000000x128 : Shape := ⟨2, ![1000000, 128]⟩
abbrev S128x128 : Shape := ⟨2, ![128, 128]⟩
abbrev S128 : Shape := ⟨1, ![128]⟩
abbrev S128x256 : Shape := ⟨2, ![128, 256]⟩
abbrev S256x256 : Shape := ⟨2, ![256, 256]⟩
abbrev S1x128 : Shape := ⟨2, ![1, 128]⟩
abbrev S8000x128 : Shape := ⟨2, ![8000, 128]⟩
abbrev S2000x128 : Shape := ⟨2, ![2000, 128]⟩
abbrev S2000x256 : Shape := ⟨2, ![2000, 256]⟩
abbrev S2000 : Shape := ⟨1, ![2000]⟩
abbrev S2000x1 : Shape := ⟨2, ![2000, 1]⟩

abbrev nBuf : Space → Nat
  | .hbm => 17
  | .vmem => 8
  | .smem => 0
  | _ => 0

abbrev bufTy : (tb : Table) → Fin (tcTables nBuf tb) → BufTy
  | .hbm, ⟨0, _⟩ => ⟨S1000000x128, .f32⟩
  | .hbm, ⟨1, _⟩ => ⟨S1000000x128, .f32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S128x128, .f32⟩
  | .hbm, ⟨10, _⟩ => ⟨S128x128, .f32⟩
  | .hbm, ⟨11, _⟩ => ⟨S128x256, .f32⟩
  | .hbm, ⟨12, _⟩ => ⟨S128x256, .f32⟩
  | .hbm, ⟨13, _⟩ => ⟨S256x256, .f32⟩
  | .hbm, ⟨14, _⟩ => ⟨S256x256, .bf16⟩
  | .hbm, ⟨15, _⟩ => ⟨S1x128, .f32⟩
  | .hbm, ⟨16, _⟩ => ⟨S1000000x128, .f32⟩
  | .local _ .vmem, ⟨0, _⟩ => ⟨S8000x128, .f32⟩
  | .local _ .vmem, ⟨1, _⟩ => ⟨S8000x128, .f32⟩
  | .local _ .vmem, ⟨2, _⟩ => ⟨S8000x128, .f32⟩
  | .local _ .vmem, ⟨3, _⟩ => ⟨S8000x128, .f32⟩
  | .local _ .vmem, ⟨4, _⟩ => ⟨S256x256, .bf16⟩
  | .local _ .vmem, ⟨5, _⟩ => ⟨S1x128, .f32⟩
  | .local _ .vmem, ⟨6, _⟩ => ⟨S8000x128, .f32⟩
  | .local _ .vmem, ⟨7, _⟩ => ⟨S8000x128, .f32⟩
  | _, _ => ⟨S1000000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![125], ![false]⟩

@[reducible] def k0_t1_loop : Scf.Loop 32 :=
  let c0_i32 : BitVec 32 := 0#32
  let c4_i32 : BitVec 32 := 4#32
  let v4 : BitVec 32 := Scalar.addi c0_i32 c4_i32
  let c1_i32 : BitVec 32 := 1#32
  ⟨c0_i32, v4, c1_i32⟩
def k0_mult1 (k0_t1 : Fin k0_t1_loop.trips) : BitVec 32 :=
  let c0_i32 : BitVec 32 := 0#32
  let c1_i32 : BitVec 32 := 1#32
  let arg6 : BitVec 32 := Scf.iv c0_i32 c1_i32 k0_t1
  let c2000_i32 : BitVec 32 := 2000#32
  let v5 : BitVec 32 := Scalar.muli arg6 c2000_i32
  v5
def k0_off1 (k0_t1 : Fin k0_t1_loop.trips) : Fin 2 → Nat :=
  let c0_i32 : BitVec 32 := 0#32
  let c1_i32 : BitVec 32 := 1#32
  let arg6 : BitVec 32 := Scf.iv c0_i32 c1_i32 k0_t1
  let c2000_i32 : BitVec 32 := 2000#32
  let v5 : BitVec 32 := Scalar.muli arg6 c2000_i32
  let v6 : BitVec 32 := v5
  let v7 : Index := Scalar.indexCast v6
  let c0_4 : Index := 0#32
  ![v7.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S128x128_S128x128_1_0 : S128x128.Transposes [1, 0] S128x128
  concatenates_S128x128_S128x128_S128x256_d1 : Shape.Concatenates [S128x128, S128x128] S128x256 1
  concatenates_S128x256_S128x256_S256x256_d0 : Shape.Concatenates [S128x256, S128x256] S256x256 0
  bitsLt_bf16_f32 : FTy.bits .bf16 < FTy.bits .f32
  shapeCasts_S128_S1x128 : S128.ShapeCasts S1x128
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x128_S1x128_0_0 : ∀ a, (![0, 0] : Fin 2 → Nat) a + S1x128.size a ≤ S1x128.size a
  h_S1x128 : 0 < S1x128.numel
  shapeCasts_S1x128_S1x128 : S1x128.ShapeCasts S1x128
  h_S2000x128 : 0 < S2000x128.numel
  concatenates_S2000x128_S2000x128_S2000x256_d1 : Shape.Concatenates [S2000x128, S2000x128] S2000x256 1
  slices_S2000x256_o0_0_S2000x128 : S2000x256.Slices ![0, 0] S2000x128
  slices_S2000x256_o0_128_S2000x128 : S2000x256.Slices ![0, 128] S2000x128
  broadcasts_S1x128_S2000x128 : S1x128.Broadcasts S2000x128
  reduces_S2000x128_S2000 : S2000x128.Reduces [1] S2000
  shapeCasts_S2000_S2000x1 : S2000.ShapeCasts S2000x1
  broadcasts_S2000x1_S2000x128 : S2000x1.Broadcasts S2000x128
  dot_S2000x256_S256x256_S2000x256_1_0_0_1_n_n_wf : DotDims.WF S2000x256 S256x256 S2000x256 [1] [0] [0] [1] [] []
  hrank0 : 0 < grid0.rank
  k0_t1_ok : k0_t1_loop.OK
  k0_mult1_dvd : ∀ k0_t1 : Fin k0_t1_loop.trips, 2000 ∣ (k0_mult1 k0_t1).toNat
  k0_off1_inb : ∀ k0_t1 : Fin k0_t1_loop.trips, ∀ a, (k0_off1 k0_t1) a + S2000x128.size a ≤ S8000x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S1000000x128.size a
  hwx0_0 : ∀ i : grid0.Coords, EltTy.bits .f32 = 32 ∨ (Rect.block (s := S1000000x128) S8000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x128.size a ≤ S1000000x128.size a
  hwx0_1 : ∀ i : grid0.Coords, EltTy.bits .f32 = 32 ∨ (Rect.block (s := S1000000x128) S8000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .bf16 = 32 ∨ (Rect.block (s := S256x256) S256x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8000x128.size a ≤ S1000000x128.size a
  hwx0_4 : ∀ i : grid0.Coords, EltTy.bits .f32 = 32 ∨ (Rect.block (s := S1000000x128) S8000x128.size (cc0_transform_4 i) (hinb0_4 i)).WholeWords (EltTy.packing .f32)

variable [Facts₀]

def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_arg0) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S8000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1000000x128 : Shape := ⟨2, ![1000000, 128]⟩
abbrev S128x128 : Shape := ⟨2, ![128, 128]⟩
abbrev S128 : Shape := ⟨1, ![128]⟩
abbrev S_ : Shape := ⟨0, ![]⟩
abbrev S1x128 : Shape := ⟨2, ![1, 128]⟩
abbrev S1000000 : Shape := ⟨1, ![1000000]⟩
abbrev S1000000x1 : Shape := ⟨2, ![1000000, 1]⟩

abbrev nBuf : Space → Nat
  | .hbm => 38
  | .vmem => 0
  | .smem => 0
  | _ => 0

abbrev bufTy : (tb : Table) → Fin (tcTables nBuf tb) → BufTy
  | .hbm, ⟨0, _⟩ => ⟨S1000000x128, .f32⟩
  | .hbm, ⟨1, _⟩ => ⟨S1000000x128, .f32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1000000x128, .f32⟩
  | .hbm, ⟨9, _⟩ => ⟨S128x128, .f32⟩
  | .hbm, ⟨10, _⟩ => ⟨S1000000x128, .f32⟩
  | .hbm, ⟨11, _⟩ => ⟨S1000000x128, .f32⟩
  | .hbm, ⟨12, _⟩ => ⟨S1000000x128, .f32⟩
  | .hbm, ⟨13, _⟩ => ⟨S1000000x128, .f32⟩
  | .hbm, ⟨14, _⟩ => ⟨S_, .f32⟩
  | .hbm, ⟨15, _⟩ => ⟨S1000000x128, .f32⟩
  | .hbm, ⟨16, _⟩ => ⟨S1000000x128, .f32⟩
  | .hbm, ⟨17, _⟩ => ⟨S_, .f32⟩
  | .hbm, ⟨18, _⟩ => ⟨S1000000x128, .f32⟩
  | .hbm, ⟨19, _⟩ => ⟨S1000000x128, .f32⟩
  | .hbm, ⟨20, _⟩ => ⟨S1x128, .f32⟩
  | .hbm, ⟨21, _⟩ => ⟨S1000000x128, .f32⟩
  | .hbm, ⟨22, _⟩ => ⟨S1000000x128, .f32⟩
  | .hbm, ⟨23, _⟩ => ⟨S_, .f32⟩
  | .hbm, ⟨24, _⟩ => ⟨S1000000, .f32⟩
  | .hbm, ⟨25, _⟩ => ⟨S1000000x1, .f32⟩
  | .hbm, ⟨26, _⟩ => ⟨S1000000x128, .f32⟩
  | .hbm, ⟨27, _⟩ => ⟨S1000000x128, .f32⟩
  | .hbm, ⟨28, _⟩ => ⟨S128x128, .f32⟩
  | .hbm, ⟨29, _⟩ => ⟨S1000000x128, .f32⟩
  | .hbm, ⟨30, _⟩ => ⟨S128x128, .f32⟩
  | .hbm, ⟨31, _⟩ => ⟨S1000000x128, .f32⟩
  | .hbm, ⟨32, _⟩ => ⟨S1000000x128, .f32⟩
  | .hbm, ⟨33, _⟩ => ⟨S1000000x128, .f32⟩
  | .hbm, ⟨34, _⟩ => ⟨S_, .f32⟩
  | .hbm, ⟨35, _⟩ => ⟨S1000000x128, .f32⟩
  | .hbm, ⟨36, _⟩ => ⟨S1000000x128, .f32⟩
  | .hbm, ⟨37, _⟩ => ⟨S1000000x128, .f32⟩
  | _, _ => ⟨S1000000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_call0_cst : Ref sig .tc := ⟨.hbm, 34, rfl⟩
abbrev main_call0_v0 : Ref sig .tc := ⟨.hbm, 35, rfl⟩
abbrev main_v24 : Ref sig .tc := ⟨.hbm, 36, rfl⟩
abbrev main_v25 : Ref sig .tc := ⟨.hbm, 37, rfl⟩

abbrev nD : Nat := 1
abbrev τ : Topo := Topo.v7x

variable {F : FTy → Type} [FloatOps F]

class Facts₀ : Prop where
  transposes_S128x128_S128x128_1_0 : S128x128.Transposes [1, 0] S128x128
  bcast_S_S1000000x128 : S_.BroadcastsInDim S1000000x128 (![] : Fin 0 → Fin S1000000x128.rank)
  bcast_S128_S1x128_1 : S128.BroadcastsInDim S1x128 (![1] : Fin 1 → Fin S1x128.rank)
  bcast_S1x128_S1000000x128_0_1 : S1x128.BroadcastsInDim S1000000x128 (![0, 1] : Fin 2 → Fin S1000000x128.rank)
  reducesTo_S1000000x128_S1000000_d1 : S1000000x128.ReducesTo [1] S1000000
  h_S_ : 0 < S_.numel
  bcast_S1000000_S1000000x1_0 : S1000000.BroadcastsInDim S1000000x1 (![0] : Fin 1 → Fin S1000000x1.rank)
  bcast_S1000000x1_S1000000x128_0_1 : S1000000x1.BroadcastsInDim S1000000x128 (![0, 1] : Fin 2 → Fin S1000000x128.rank)
  dot_S1000000x128_S128x128_S1000000x128_1_0_0_1_n_n_wf : DotDims.WF S1000000x128 S128x128 S1000000x128 [1] [0] [0] [1] [] []

variable [Facts₀]

def dot_S1000000x128_S128x128_S1000000x128_1_0_0_1_n_n : DotDims S1000000x128 S128x128 S1000000x128 where
  lhsContracting := [1]
  rhsContracting := [0]
  lhsNonContracting := [0]
  rhsNonContracting := [1]
  lhsBatch := []
  rhsBatch := []
  wf := dot_S1000000x128_S128x128_S1000000x128_1_0_0_1_n_n_wf

class Facts : Prop extends Facts₀ where

variable [Facts]
-- ==== Proof.GatedSpec.lean ====
/-
  The gated interaction layer as ONE function of its arrays, on the extended reals.

  For a table of subject rows s and object rows o (R rows of 128 entries), square weights Vs, Vo, Ws, Wo and a
  weight vector w, the entry at row r and column c is

      σ( (s·Vsᵀ)(r,c) + (o·Voᵀ)(r,c) )  ·  max( (s·Wsᵀ)(r,c) + (o·Woᵀ)(r,c) + s(r,c) · ⟨o(r,·), w⟩ , 0 ),

  σ x = 1 / (1 + e^(−x)). The same entry is written a second way, from the four weights held in one 256 × 256
  matrix [[Vsᵀ, Wsᵀ], [Voᵀ, Woᵀ]] and the weight vector held as a row: a row [s(r,·) | o(r,·)] of 256 entries
  times a column of that matrix is a sum of 256 products, and a sum of 256 terms is the sum of its first 128 and
  its last 128 — true in every commutative additive monoid, so nothing here asks an entry to be finite. An
  entry depends on row r of s and of o alone.
-/
import Idealize.ShloMosaic.PureOps.Ideal.Laws
import Idealize.ShloMosaic.Lib.ValueIdx

noncomputable section

open scoped BigOperators

namespace Cert.Gated

open Idealize.ShloMosaic Idealize.ShloMosaic.ValueIdx

variable {R R' : ℕ}

/-- `(x · Wᵀ)(r, c) = ∑ k, x(r, k) · W(c, k)`. -/
def lin (x : FVec Ideal ⟨2, ![R, 128]⟩ .f32) (W : FVec Ideal ⟨2, ![128, 128]⟩ .f32) (r : Fin R) (c : Fin 128) : EReal :=
  ∑ k : Fin 128, x (ix2 r k) * W (ix2 c k)

/-- `⟨o(r, ·), w⟩ = ∑ j, o(r, j) · w(j)`. -/
def rowDot (o : FVec Ideal ⟨2, ![R, 128]⟩ .f32) (w : FVec Ideal ⟨1, ![128]⟩ .f32) (r : Fin R) : EReal :=
  ∑ j : Fin 128, o (ix2 r j) * w (ix1 j)

/-- The layer's entry at row `r`, column `c`. -/
def entry (s o : FVec Ideal ⟨2, ![R, 128]⟩ .f32) (Vs Vo Ws Wo : FVec Ideal ⟨2, ![128, 128]⟩ .f32)
    (w : FVec Ideal ⟨1, ![128]⟩ .f32) (r : Fin R) (c : Fin 128) : EReal :=
  Ideal.logistic (lin s Vs r c + lin o Vo r c)
    * max (lin s Ws r c + lin o Wo r c + s (ix2 r c) * rowDot o w r) 0

/-- The layer over a million rows, as an array. -/
def out (s o : FVec Ideal ⟨2, ![1000000, 128]⟩ .f32) (Vs Vo Ws Wo : FVec Ideal ⟨2, ![128, 128]⟩ .f32)
    (w : FVec Ideal ⟨1, ![128]⟩ .f32) : FVec Ideal ⟨2, ![1000000, 128]⟩ .f32 :=
  fun i => entry s o Vs Vo Ws Wo w (i 0) (i 1)

/-! ## The stacked weights -/

/-- Position `k` of the first half of 256 positions, and of the second half. -/
abbrev lo (k : Fin 128) : Fin 256 := ⟨k.val, Nat.lt_of_lt_of_le k.isLt (by decide)⟩
abbrev hi (k : Fin 128) : Fin 256 := ⟨128 + k.val, Nat.add_lt_add_left k.isLt 128⟩

/-- A sum over 256 positions is the sum over the first half plus the sum over the second half. -/
theorem sum_halves {β : Type*} [AddCommMonoid β] (f : Fin 256 → β) :
    ∑ k : Fin 256, f k = ∑ k : Fin 128, f (lo k) + ∑ k : Fin 128, f (hi k) :=
  Fin.sum_univ_add (a := 128) (b := 128) f

/-- The entry from the stacked matrix `Wc` (its four 128 × 128 quarters) and the weight vector held as a row. -/
def entryStacked (s o : FVec Ideal ⟨2, ![R, 128]⟩ .f32) (Wc : FVec Ideal ⟨2, ![256, 256]⟩ .bf16)
    (w2 : FVec Ideal ⟨2, ![1, 128]⟩ .f32) (r : Fin R) (c : Fin 128) : EReal :=
  Ideal.logistic ((∑ k : Fin 128, s (ix2 r k) * Wc (ix2 (lo k) (lo c))) + ∑ k : Fin 128, o (ix2 r k) * Wc (ix2 (hi k) (lo c)))
    * max (((∑ k : Fin 128, s (ix2 r k) * Wc (ix2 (lo k) (hi c))) + ∑ k : Fin 128, o (ix2 r k) * Wc (ix2 (hi k) (hi c)))
        + s (ix2 r c) * ∑ j : Fin 128, o (ix2 r j) * w2 (ix2 (0 : Fin 1) j)) 0

/-- When the stacked matrix's quarters are the four transposed weights and its row is the weight vector, the
    stacked entry is the layer's entry. -/
theorem entryStacked_eq (s o : FVec Ideal ⟨2, ![R, 128]⟩ .f32) (Wc : FVec Ideal ⟨2, ![256, 256]⟩ .bf16)
    (w2 : FVec Ideal ⟨2, ![1, 128]⟩ .f32) (Vs Vo Ws Wo : FVec Ideal ⟨2, ![128, 128]⟩ .f32) (w : FVec Ideal ⟨1, ![128]⟩ .f32)
    (hVs : ∀ k c : Fin 128, Wc (ix2 (lo k) (lo c)) = Vs (ix2 c k))
    (hVo : ∀ k c : Fin 128, Wc (ix2 (hi k) (lo c)) = Vo (ix2 c k))
    (hWs : ∀ k c : Fin 128, Wc (ix2 (lo k) (hi c)) = Ws (ix2 c k))
    (hWo : ∀ k c : Fin 128, Wc (ix2 (hi k) (hi c)) = Wo (ix2 c k))
    (hw : ∀ j : Fin 128, w2 (ix2 (0 : Fin 1) j) = w (ix1 j)) (r : Fin R) (c : Fin 128) :
    entryStacked s o Wc w2 r c = entry s o Vs Vo Ws Wo w r c := by
  simp only [entryStacked, entry, lin, rowDot, hVs, hVo, hWs, hWo, hw]

/-- The stacked entry reads row `r` of the two tables and nothing else of them. -/
theorem entryStacked_congr (s o : FVec Ideal ⟨2, ![R, 128]⟩ .f32) (s' o' : FVec Ideal ⟨2, ![R', 128]⟩ .f32)
    (Wc : FVec Ideal ⟨2, ![256, 256]⟩ .bf16) (w2 : FVec Ideal ⟨2, ![1, 128]⟩ .f32) (r : Fin R) (r' : Fin R') (c : Fin 128)
    (hs : ∀ k : Fin 128, s (ix2 r k) = s' (ix2 r' k)) (ho : ∀ k : Fin 128, o (ix2 r k) = o' (ix2 r' k)) :
    entryStacked s o Wc w2 r c = entryStacked s' o' Wc w2 r' c := by
  simp only [entryStacked, hs, ho]

/-! ## The two literals -/

/-- The word of `1.0` denotes one. -/
theorem ofBits_one : Ideal.ofBits .f32 0x3F800000#32 = 1 := by
  simp [Ideal.ofBits, Ideal.ieee, -EReal.coe_mul]
  norm_num

end Cert.Gated

end
-- ==== Proof.RefGated.lean ====
/-
  The reference computes the gated interaction layer. Read one operation at a time, its result at row r and
  column c is: the four products x · Wᵀ, each a sum over the shared axis of a table's row against a weight's ROW
  (the transpose turns the weight's column index into its row index); the object row's inner product with the
  weight vector, a host sum started from the zero word; the logistic function spelled as 1 / (1 + e^(−x)) with
  the word of 1.0; and the rectifier as a maximum with the zero word. Entry by entry that is the layer's
  function of the seven arrays.
-/
import proofs.«167487_j20005957665470_2_alg».proof.Proof.Gen.ReferenceIdeal.Read
import proofs.«167487_j20005957665470_2_alg».proof.Proof.GatedSpec

noncomputable section

open scoped BigOperators

namespace Cert.ReferenceIdeal.RefValue

open Cert.ReferenceIdeal Cert.ReferenceIdeal.Gen Cert.ReferenceIdeal.Read
open Idealize.ShloMosaic Idealize.ShloMosaic.ValueIdx

/-- A table times a transposed weight, at (r, c): the row of the table against ROW c of the weight. -/
theorem lin_v1 (x0 : FVec Ideal S1000000x128 .f32) (x2 : FVec Ideal S128x128 .f32) (r : Fin 1000000) (c : Fin 128) :
    val_main_v1 (F := Ideal) x0 x2 (ix2 r c) = Cert.Gated.lin x0 x2 r c := by
  rw [val_main_v1_apply]; unfold Cert.Gated.lin
  refine Finset.sum_congr rfl fun k _ => ?_
  rw [val_main_v0_apply]
  exact congrArg₂ (· * ·)
    (congrArg x0 (funext fun a => Fin.ext (by match a with | ⟨0, _⟩ => rfl | ⟨1, _⟩ => rfl)))
    (congrArg x2 (funext fun a => Fin.ext (by match a with | ⟨0, _⟩ => rfl | ⟨1, _⟩ => rfl)))

theorem lin_v3 (x1 : FVec Ideal S1000000x128 .f32) (x3 : FVec Ideal S128x128 .f32) (r : Fin 1000000) (c : Fin 128) :
    val_main_v3 (F := Ideal) x1 x3 (ix2 r c) = Cert.Gated.lin x1 x3 r c := by
  rw [val_main_v3_apply]; unfold Cert.Gated.lin
  refine Finset.sum_congr rfl fun k _ => ?_
  rw [val_main_v2_apply]
  exact congrArg₂ (· * ·)
    (congrArg x1 (funext fun a => Fin.ext (by match a with | ⟨0, _⟩ => rfl | ⟨1, _⟩ => rfl)))
    (congrArg x3 (funext fun a => Fin.ext (by match a with | ⟨0, _⟩ => rfl | ⟨1, _⟩ => rfl)))

theorem lin_v19 (x0 : FVec Ideal S1000000x128 .f32) (x4 : FVec Ideal S128x128 .f32) (r : Fin 1000000) (c : Fin 128) :
    val_main_v19 (F := Ideal) x0 x4 (ix2 r c) = Cert.Gated.lin x0 x4 r c := by
  rw [val_main_v19_apply]; unfold Cert.Gated.lin
  refine Finset.sum_congr rfl fun k _ => ?_
  rw [val_main_v18_apply]
  exact congrArg₂ (· * ·)
    (congrArg x0 (funext fun a => Fin.ext (by match a with | ⟨0, _⟩ => rfl | ⟨1, _⟩ => rfl)))
    (congrArg x4 (funext fun a => Fin.ext (by match a with | ⟨0, _⟩ => rfl | ⟨1, _⟩ => rfl)))

theorem lin_v21 (x1 : FVec Ideal S1000000x128 .f32) (x5 : FVec Ideal S128x128 .f32) (r : Fin 1000000) (c : Fin 128) :
    val_main_v21 (F := Ideal) x1 x5 (ix2 r c) = Cert.Gated.lin x1 x5 r c := by
  rw [val_main_v21_apply]; unfold Cert.Gated.lin
  refine Finset.sum_congr rfl fun k _ => ?_
  rw [val_main_v20_apply]
  exact congrArg₂ (· * ·)
    (congrArg x1 (funext fun a => Fin.ext (by match a with | ⟨0, _⟩ => rfl | ⟨1, _⟩ => rfl)))
    (congrArg x5 (funext fun a => Fin.ext (by match a with | ⟨0, _⟩ => rfl | ⟨1, _⟩ => rfl)))

/-- The object row's inner product with the weight vector: the host sum starts from the zero word, which adds
    nothing. -/
theorem rowDot_v14 (x1 : FVec Ideal S1000000x128 .f32) (x6 : FVec Ideal S128 .f32) (r : Fin 1000000) :
    val_main_v14 (F := Ideal) x1 x6 (ix1 r) = Cert.Gated.rowDot x1 x6 r := by
  rw [val_main_v14_apply, val_main_cst_1_apply]
  show Ideal.ofBits .f32 0x00000000#32 + _ = _
  rw [Ideal.ofBits_zero_f32, zero_add]; unfold Cert.Gated.rowDot
  refine Finset.sum_congr rfl fun k _ => ?_
  rw [val_main_v13_apply, val_main_v12_apply, val_main_v11_apply]
  exact congrArg₂ (· * ·)
    (congrArg x1 (funext fun a => Fin.ext (by match a with | ⟨0, _⟩ => rfl | ⟨1, _⟩ => rfl)))
    (congrArg x6 (funext fun a => Fin.ext (by match a with | ⟨0, _⟩ => rfl)))

/-- THE REFERENCE IS THE LAYER: its result stage, at the exact reals, is the layer's function of the arrays. -/
theorem ref_eq (x0 x1 : FVec Ideal S1000000x128 .f32) (x2 x3 x4 x5 : FVec Ideal S128x128 .f32) (x6 : FVec Ideal S128 .f32) :
    val_main_v25 (F := Ideal) x0 x1 x2 x3 x4 x5 x6 = Cert.Gated.out x0 x1 x2 x3 x4 x5 x6 := by
  funext i
  obtain ⟨r, c, rfl⟩ : ∃ (r : Fin 1000000) (c : Fin 128), i = ix2 r c := ⟨i 0, i 1, eq_ix2 i⟩
  rw [val_main_v25_apply, val_main_v10_apply, val_main_v9_apply, val_main_cst_0_apply, val_main_v8_apply,
    val_main_v7_apply, val_main_cst_apply, val_main_v6_apply, val_main_v5_apply, val_main_v4_apply, lin_v1, lin_v3,
    val_main_v24_apply, val_main_v23_apply, val_main_v22_apply, lin_v19, lin_v21, val_main_v17_apply,
    val_main_v16_apply, val_main_v15_apply, val_main_call0_v0_apply, val_main_call0_cst_apply,
    show idx_main_v15 (idx_main_v16 (ix2 r c)) = ix1 r from
      funext fun a => Fin.ext (by match a with | ⟨0, _⟩ => rfl),
    rowDot_v14]
  simp only [Ideal.mulf_def, Ideal.addf_def, Ideal.hostDivf_def, Ideal.hostUnary_exp_def, Ideal.hostNegf_def,
    Ideal.negf_def, Ideal.maximumf_def, Ideal.ofBits_def, Cert.Gated.ofBits_one, Ideal.ofBits_zero_f32]
  rfl

end Cert.ReferenceIdeal.RefValue

end
-- ==== Proof.LibConcatPair.lean ====
/-
  Two matrices joined into one, read at coordinates. Laid side by side ([a, b₁] and [a, b₂] into [a, b] along the
  columns), the joined matrix reads the left piece at a column below b₁ and the right piece, b₁ columns to the
  left, from column b₁ on; stacked ([a₁, b] on top of [a₂, b] into [a, b] along the rows), it reads the top piece
  at a row below a₁ and the bottom piece, a₁ rows up, from row a₁ on. Each is the library's two-piece lemma
  with the per-axis arithmetic discharged for rank two.
-/
import Idealize.ShloMosaic.Lib.Pipeline.Value
import Idealize.ShloMosaic.Lib.ValueIdx

namespace Cert.Lib.ConcatPair

open Idealize.ShloMosaic Idealize.ShloMosaic.ValueIdx

variable {α : Type}

/-- Side by side, at a column of the left piece. -/
theorem cols_left {a b₁ b₂ b : ℕ} (x₁ : (⟨2, ![a, b₁]⟩ : Shape).Idx → α) (x₂ : (⟨2, ![a, b₂]⟩ : Shape).Idx → α)
    (h : Shape.Concatenates [⟨2, ![a, b₁]⟩, ⟨2, ![a, b₂]⟩] ⟨2, ![a, b]⟩ 1) (p : Fin a) (k : Fin b₁) (k' : Fin b)
    (hk : k'.val = k.val) :
    concatenate ⟨2, ![a, b]⟩ 1 [⟨⟨2, ![a, b₁]⟩, x₁⟩, ⟨⟨2, ![a, b₂]⟩, x₂⟩] h (ix2 p k') = x₁ (ix2 p k) :=
  concatenate_pair_apply_left (1 : Fin 2) x₁ x₂ h (ix2 p k') rfl (ix2 p k) fun ax => by
    match ax with
    | ⟨0, _⟩ => rfl
    | ⟨1, _⟩ => exact hk.symm

/-- Side by side, at a column of the right piece. -/
theorem cols_right {a b₁ b₂ b : ℕ} (x₁ : (⟨2, ![a, b₁]⟩ : Shape).Idx → α) (x₂ : (⟨2, ![a, b₂]⟩ : Shape).Idx → α)
    (h : Shape.Concatenates [⟨2, ![a, b₁]⟩, ⟨2, ![a, b₂]⟩] ⟨2, ![a, b]⟩ 1) (p : Fin a) (k : Fin b₂) (k' : Fin b)
    (hk : k'.val = b₁ + k.val) :
    concatenate ⟨2, ![a, b]⟩ 1 [⟨⟨2, ![a, b₁]⟩, x₁⟩, ⟨⟨2, ![a, b₂]⟩, x₂⟩] h (ix2 p k') = x₂ (ix2 p k) :=
  concatenate_pair_apply_right (1 : Fin 2) x₁ x₂ h (ix2 p k') rfl rfl (ix2 p k)
    (fun ax hne => by
      match ax, hne with
      | ⟨0, _⟩, _ => rfl
      | ⟨1, _⟩, hne => exact absurd rfl hne)
    (by show k.val + b₁ = k'.val; omega)

/-- Stacked, at a row of the top piece. -/
theorem rows_top {a₁ a₂ a b : ℕ} (x₁ : (⟨2, ![a₁, b]⟩ : Shape).Idx → α) (x₂ : (⟨2, ![a₂, b]⟩ : Shape).Idx → α)
    (h : Shape.Concatenates [⟨2, ![a₁, b]⟩, ⟨2, ![a₂, b]⟩] ⟨2, ![a, b]⟩ 0) (k : Fin a₁) (k' : Fin a) (c : Fin b)
    (hk : k'.val = k.val) :
    concatenate ⟨2, ![a, b]⟩ 0 [⟨⟨2, ![a₁, b]⟩, x₁⟩, ⟨⟨2, ![a₂, b]⟩, x₂⟩] h (ix2 k' c) = x₁ (ix2 k c) :=
  concatenate_pair_apply_left (0 : Fin 2) x₁ x₂ h (ix2 k' c) rfl (ix2 k c) fun ax => by
    match ax with
    | ⟨0, _⟩ => exact hk.symm
    | ⟨1, _⟩ => rfl

/-- Stacked, at a row of the bottom piece. -/
theorem rows_bottom {a₁ a₂ a b : ℕ} (x₁ : (⟨2, ![a₁, b]⟩ : Shape).Idx → α) (x₂ : (⟨2, ![a₂, b]⟩ : Shape).Idx → α)
    (h : Shape.Concatenates [⟨2, ![a₁, b]⟩, ⟨2, ![a₂, b]⟩] ⟨2, ![a, b]⟩ 0) (k : Fin a₂) (k' : Fin a) (c : Fin b)
    (hk : k'.val = a₁ + k.val) :
    concatenate ⟨2, ![a, b]⟩ 0 [⟨⟨2, ![a₁, b]⟩, x₁⟩, ⟨⟨2, ![a₂, b]⟩, x₂⟩] h (ix2 k' c) = x₂ (ix2 k c) :=
  concatenate_pair_apply_right (0 : Fin 2) x₁ x₂ h (ix2 k' c) rfl rfl (ix2 k c)
    (fun ax hne => by
      match ax, hne with
      | ⟨0, _⟩, hne => exact absurd rfl hne
      | ⟨1, _⟩, _ => rfl)
    (by show k.val + a₁ = k'.val; omega)

end Cert.Lib.ConcatPair
-- ==== Proof.LibPlainDot.lean ====
/-
  A plain matrix product read at an entry. For the dimension numbers of `M×K` by `K×N` with no batch axis
  (`DotDims.plain M K N`: the left operand contracted on its columns, the right on its rows), the sum over
  the one-axis contraction index of any function of the two operand indices is the sum over `k : Fin K` of
  that function at `(p, k)` and `(k, c)` (`sum_plain`). Hence, on the extended reals, a `tpu.matmul` into
  the zero accumulator and a host `dot_general`, read at `(p, c)`, are both `∑ k, A (p, k) * B (k, c)`
  (`matmul_plain_zero_apply`, `dotGeneral_plain_apply`), for every `M`, `K`, `N`.
-/
import Idealize.ShloMosaic.PureOps.Ideal.Laws
import Idealize.ShloMosaic.Lib.ValueIdx

noncomputable section

open scoped BigOperators

namespace Cert.Lib.PlainDot

open Idealize.ShloMosaic Idealize.ShloMosaic.ValueIdx

variable {M K N : Nat}

/-- The left operand's index at output `(p, c)` and contraction coordinate `k` is `(p, k)`. -/
theorem lhsIdx_plain (p : Fin M) (c : Fin N) (k : Fin K) :
    (DotDims.plain M K N).lhsIdx (ix2 p c) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 p c) _).trans hk

/-- The right operand's index at output `(p, c)` and contraction coordinate `k` is `(k, c)`. -/
theorem rhsIdx_plain (p : Fin M) (c : Fin N) (k : Fin K) :
    (DotDims.plain M K N).rhsIdx (ix2 p c) ((contrEquiv1 (DotDims.plain M K N) K rfl rfl).symm k) = ix2 k c := by
  have hk := contrEquiv1_symm_val (DotDims.plain M K N) K rfl rfl k
  funext a
  apply Fin.ext
  match a with
  | ⟨0, _⟩ => exact ((DotDims.plain M K N).rhsIdx_val_of_single rfl (ix2 p c) _).trans hk
  | ⟨1, _⟩ => rfl

/-- A sum over the contraction index of a plain product's dimension numbers, of any function of the two
    operand indices, is the sum over the shared axis's coordinate. -/
theorem sum_plain {β : Type*} [AddCommMonoid β]
    (f : (⟨2, ![M, K]⟩ : Shape).Idx → (⟨2, ![K, N]⟩ : Shape).Idx → β) (p : Fin M) (c : Fin N) :
    ∑ q : (DotDims.plain M K N).contr.Idx,
        f ((DotDims.plain M K N).lhsIdx (ix2 p c) q) ((DotDims.plain M K N).rhsIdx (ix2 p c) q)
      = ∑ k : Fin K, f (ix2 p k) (ix2 k c) := by
  rw [← Equiv.sum_comp (contrEquiv1 (DotDims.plain M K N) K rfl rfl).symm]
  refine Finset.sum_congr rfl fun k _ => ?_
  rw [lhsIdx_plain, rhsIdx_plain]

/-- On the extended reals a `tpu.matmul` of `A : M×K` and `B : K×N` into the zero accumulator, read at
    `(p, c)`, is `∑ k, A (p, k) * B (k, c)`. -/
theorem matmul_plain_zero_apply {φ₁ φ₂ : FTy} (prec : Option ContractPrecision)
    (A : FVec Ideal ⟨2, ![M, K]⟩ φ₁) (B : FVec Ideal ⟨2, ![K, N]⟩ φ₂) (p : Fin M) (c : Fin N) :
    FloatOps.matmul (DotDims.plain M K N) prec A B (constant ⟨2, ![M, N]⟩ .f32 0x00000000#32) (ix2 p c)
      = ∑ k : Fin K, A (ix2 p k) * B (ix2 k c) :=
  (Ideal.matmul_constant_zero_apply (DotDims.plain M K N) prec A B (ix2 p c)).trans
    (sum_plain (fun i j => A i * B j) p c)

/-- On the extended reals a host `dot_general` of `A : M×K` and `B : K×N`, read at `(p, c)`, is the
    same sum, whatever the schedule. -/
theorem dotGeneral_plain_apply {φ₁ φ₂ : FTy} (prec : Option ContractPrecision) (sched : HostSchedule)
    (A : FVec Ideal ⟨2, ![M, K]⟩ φ₁) (B : FVec Ideal ⟨2, ![K, N]⟩ φ₂) (p : Fin M) (c : Fin N) :
    FloatOps.dotGeneral (DotDims.plain M K N) prec sched A B (ix2 p c)
      = ∑ k : Fin K, A (ix2 p k) * B (ix2 k c) :=
  (Ideal.dotGeneral_apply (DotDims.plain M K N) prec sched A B (ix2 p c)).trans
    (sum_plain (fun i j => A i * B j) p c)

end Cert.Lib.PlainDot

end
-- ==== Proof.LibKeepdims.lean ====
/-
  Layout operations of a row reduction that keeps its axis, read at an index given by coordinates: a vector
  [a] cast to a column [a, 1]; a column [a, 1] broadcast over b lanes to [a, b]; the index a reduction over the
  last axis of a matrix puts back; and the float sum over a matrix's last axis, at exact arithmetic, as the sum
  of a row. Each is the library's general lemma with the per-axis arithmetic discharged for these shapes.
-/
import Idealize.ShloMosaic.Lib.ValueLayout
import Idealize.ShloMosaic.PureOps.Ideal.Laws

namespace Cert.Lib.Keepdims

open Idealize.ShloMosaic Idealize.ShloMosaic.ValueIdx

variable {α : Type}

/-- An [a] array cast to the column [a, 1] reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column broadcast over b lanes to [a, b] reads, at (p, c), the column at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a reduction over a matrix's last axis puts back over row p, at coordinate k, is (p, k). -/
theorem lift_lastAxis {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- A float sum over a matrix's last axis from the zero word, at exact arithmetic, is at row p the sum of that
    row's entries. -/
theorem rowSum_apply {a b : ℕ} (src : FVec Ideal ⟨2, ![a, b]⟩ .f32) (h : (⟨2, ![a, b]⟩ : Shape).Reduces [1] (⟨1, ![a]⟩ : Shape))
    (hφ : FKind.Formats .f32) (hacc : (0x00000000#32 : BitVec 32) = 0x00000000#32) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  exact Finset.sum_congr rfl fun k _ => congrArg src (lift_lastAxis h p k)

end Cert.Lib.Keepdims
-- ==== Proof.ChunkPayload.lean ====
/-
  One chunk of the kernel's body, read at an entry. The body lays a chunk's subject rows and object rows side by
  side ([s | o], 256 columns), multiplies by the 256 × 256 stacked matrix into a zero accumulator, and cuts the
  product into its left and right 128 columns. At row p and column c' the product is a sum of 256 terms; its
  first 128 pair the subject row with rows 0–127 of the stacked matrix and its last 128 pair the object row with
  rows 128–255. The object row's inner product with the weight row is a lane sum started from the zero word,
  kept as a column and spread back over the lanes. Put together, the value stored at (p, q) is the layer's
  entry written over the stacked matrix, for the chunk's own rows.
-/
import proofs.«167487_j20005957665470_2_alg».proof.Proof.Gen.KernelIdeal.Skeleton
import proofs.«167487_j20005957665470_2_alg».proof.Proof.GatedSpec
import proofs.«167487_j20005957665470_2_alg».proof.Proof.LibConcatPair
import proofs.«167487_j20005957665470_2_alg».proof.Proof.LibPlainDot
import proofs.«167487_j20005957665470_2_alg».proof.Proof.LibKeepdims
import Idealize.ShloMosaic.Lib.ValueLayout

noncomputable section

open scoped BigOperators

namespace Cert.KernelIdeal.Chunk

open Cert.KernelIdeal Cert.KernelIdeal.Gen Cert.Gated
open Idealize.ShloMosaic Idealize.ShloMosaic.ValueIdx

/-- The logistic function lane by lane. -/
theorem logistic_apply {s : Shape} {φ : FTy} (a : FVec Ideal s φ) (i : s.Idx) : logistic a i = Ideal.logistic (a i) := rfl

/-- [s | o] times the stacked matrix, at row p and column c': the subject row against the matrix's upper half
    plus the object row against its lower half. -/
theorem fused_apply (v0 : FVec Ideal S256x256 .bf16) (v8 v10 : FVec Ideal S2000x128 .f32) (p : Fin 2000) (c' : Fin 256) :
    matmul dot_S2000x256_S256x256_S2000x256_1_0_0_1_n_n none
        (concatenate S2000x256 1 [⟨S2000x128, truncf .bf16 v8 bitsLt_bf16_f32⟩, ⟨S2000x128, truncf .bf16 v10 bitsLt_bf16_f32⟩]
          concatenates_S2000x128_S2000x128_S2000x256_d1)
        (shapeCast S256x256 v0 shapeCasts_S256x256_S256x256) (constant S2000x256 .f32 0x00000000#32) (ix2 p c')
      = (∑ k : Fin 128, v8 (ix2 p k) * v0 (ix2 (lo k) c')) + ∑ k : Fin 128, v10 (ix2 p k) * v0 (ix2 (hi k) c') := by
  rw [shapeCast_self]
  refine (Cert.Lib.PlainDot.matmul_plain_zero_apply none _ v0 p c').trans ?_
  rw [sum_halves]
  refine congrArg₂ (· + ·) (Finset.sum_congr rfl fun k _ => ?_) (Finset.sum_congr rfl fun k _ => ?_)
  · exact congrArg (fun t => t * v0 (ix2 (lo k) c'))
      (Cert.Lib.ConcatPair.cols_left (truncf .bf16 v8 bitsLt_bf16_f32) (truncf .bf16 v10 bitsLt_bf16_f32) _ p k (lo k) rfl)
  · exact congrArg (fun t => t * v0 (ix2 (hi k) c'))
      (Cert.Lib.ConcatPair.cols_right (truncf .bf16 v8 bitsLt_bf16_f32) (truncf .bf16 v10 bitsLt_bf16_f32) _ p k (hi k) rfl)

/-- The object row's inner product with the weight row, spread over the lanes: at (p, q) it is the sum over
    the lanes of row p, whatever q. -/
theorem rowDot_apply (v2 : FVec Ideal S1x128 .f32) (v10 : FVec Ideal S2000x128 .f32) (p : Fin 2000) (q : Fin 128) :
    broadcastTo S2000x128
        (shapeCast S2000x1
          (multiReduction .add [1] S2000
            (mulf v10 (broadcastTo S2000x128 (shapeCast S1x128 v2 shapeCasts_S1x128_S1x128) broadcasts_S1x128_S2000x128))
            0x00000000#32 reduces_S2000x128_S2000 (.inl rfl) rfl)
          shapeCasts_S2000_S2000x1)
        broadcasts_S2000x1_S2000x128 (ix2 p q)
      = ∑ j : Fin 128, v10 (ix2 p j) * v2 (ix2 (0 : Fin 1) j) := by
  rw [Cert.Lib.Keepdims.broadcastTo_a1_ab_apply, Cert.Lib.Keepdims.shapeCast_a_a1_apply, Cert.Lib.Keepdims.rowSum_apply]
  refine Finset.sum_congr rfl fun j _ => ?_
  rw [mulf_apply, broadcastTo_1b_ab_apply, shapeCast_self]

/-- THE CHUNK'S STORED VALUE at (p, q): the layer's entry over the stacked matrix, for the chunk's rows. -/
theorem pay_apply (v0 : Vec Ideal S256x256 .bf16) (v2 : Vec Ideal S1x128 .f32) (v8 v10 : Vec Ideal S2000x128 .f32)
    (p : Fin 2000) (q : Fin 128) :
    k0_pay1 v0 v2 v8 v10 (ix2 p q) = entryStacked v8 v10 v0 v2 p q := by
  unfold k0_pay1
  simp only [mulf_apply, addf_apply, maximumf_apply, broadcast_apply, logistic_apply]
  rw [slice2_axis1_apply 0 _ slices_S2000x256_o0_0_S2000x128 p q (lo q) (Nat.zero_add _).symm,
    slice2_axis1_apply 128 _ slices_S2000x256_o0_128_S2000x128 p q (hi q) rfl,
    fused_apply, fused_apply, rowDot_apply]
  show _ * max _ (Ideal.ofBits .f32 0x00000000#32) = _
  rw [Ideal.ofBits_zero_f32]
  rfl

end Cert.KernelIdeal.Chunk

end
-- ==== Proof.BlockPieces.lean ====
/-
  What one grid point leaves in its output block. The body walks the block's 8000 rows in four chunks of 2000;
  each trip of that walk stores one rectangle of 2000 rows, whose value is the chunk's payload of the subject and
  object blocks read through the same rectangle. Every stored value is therefore the block function — the
  layer's entry over the stacked matrix, at the block's own row — restricted to the rectangle it is stored
  through, because an entry reads row r of the two tables and nothing else of them. Pieces that all restrict one
  function, and together cover the block, read back as that function, in whatever order they were stored.
-/
import proofs.«167487_j20005957665470_2_alg».proof.Proof.Gen.KernelIdeal.Frame
import proofs.«167487_j20005957665470_2_alg».proof.Proof.ChunkPayload
import Idealize.ShloMosaic.Lib.Pipeline.Value

set_option maxRecDepth 16384

noncomputable section

namespace Cert.KernelIdeal.Block

open Cert.KernelIdeal Cert.KernelIdeal.Gen Cert.Gated
open Idealize.ShloMosaic Idealize.ShloMosaic.TcCoe Idealize.ShloMosaic.ValueIdx
open Idealize.SL Idealize.SL.Sem

/-- The block function: at the block's row and column, the layer's entry over the stacked matrix. -/
def blockFn (x0 x1 : Vec Ideal S8000x128 .f32) (x2 : Vec Ideal S256x256 .bf16) (x3 : Vec Ideal S1x128 .f32) :
    Vec Ideal S8000x128 .f32 :=
  fun y => entryStacked x0 x1 x2 x3 (y 0) (y 1)

theorem hz : (![0, 0] : Fin 2 → Nat) = fun _ => 0 := funext fun a => by fin_cases a <;> rfl

section Pieces

variable {F : FTy → Type} [FloatOps F]
variable (𝒱 : Variants) (c : Dev nD) (bd : Option 𝒱.V) (i : grid0.Coords)
  (arg1 : Memref sig .tc .vmem S8000x128 .f32) (harg1 : arg1.IsWhole)
  (arg2 : Memref sig .tc .vmem S8000x128 .f32) (harg2 : arg2.IsWhole)
  (arg3 : Memref sig .tc .vmem S256x256 .bf16) (harg3 : arg3.IsWhole)
  (arg4 : Memref sig .tc .vmem S1x128 .f32) (harg4 : arg4.IsWhole)
  (arg5 : Memref sig .tc .vmem S8000x128 .f32) (harg5 : arg5.IsWhole)
  (v0 : Vec F S256x256 .bf16) (v2 : Vec F S1x128 .f32)
  (X1 : BufTy.Contents (Elt F) arg1.view.ty) (X2 : BufTy.Contents (Elt F) arg2.view.ty)

/-- One trip stores ONE piece: through the chunk's rectangle, the payload of the two input buffers read through
    that rectangle. -/
theorem tripL_eq (k : Fin k0_t1_loop.trips) :
    tripL_k0_t1 (F := F) 𝒱 c bd i arg1 harg1 arg2 harg2 arg3 harg3 arg4 harg4 arg5 harg5 v0 v2 X1 X2 k
      = [⟨Rect.unit (s := S8000x128) (k0_off1 k) S2000x128.size (k0_off1_inb k),
          k0_pay1 v0 v2
            (View.readAt (Elt F) arg1.view (Rect.unit (s := S8000x128) (k0_off1 k) S2000x128.size (k0_off1_inb k)).toLoadRect X1)
            (View.readAt (Elt F) arg2.view (Rect.unit (s := S8000x128) (k0_off1 k) S2000x128.size (k0_off1_inb k)).toLoadRect X2)⟩] := by
  unfold tripL_k0_t1 trip_k0_t1
  rfl

/-- Every piece stored by the first `n` trips is some trip's piece. -/
theorem mem_pb : ∀ (n : ℕ) (pc : View.Piece (Elt F) S8000x128 .f32),
    pc ∈ pb_k0_t1 (F := F) 𝒱 c bd i arg1 harg1 arg2 harg2 arg3 harg3 arg4 harg4 arg5 harg5 v0 v2 X1 X2 n →
    ∃ k : Fin k0_t1_loop.trips,
      pc ∈ tripL_k0_t1 (F := F) 𝒱 c bd i arg1 harg1 arg2 harg2 arg3 harg3 arg4 harg4 arg5 harg5 v0 v2 X1 X2 k
  | 0, pc, h => by rw [pb_k0_t1.eq_1] at h; exact absurd h List.not_mem_nil
  | n + 1, pc, h => by
    rw [pb_k0_t1.eq_2] at h
    unfold pb_k0_t1Step at h
    split at h
    · rename_i hn
      rcases List.mem_append.mp h with h | h
      · exact ⟨⟨n, hn⟩, h⟩
      · exact mem_pb n pc h
    · exact mem_pb n pc h

end Pieces

/-- WHAT A POINT LEAVES IN ITS OUTPUT BLOCK is the block function of its four input blocks. -/
theorem out_eq (c : Dev nD) (i : grid0.Coords)
    (arg1 : Memref sig .tc .vmem S8000x128 .f32) (harg1 : arg1.IsWhole)
    (arg2 : Memref sig .tc .vmem S8000x128 .f32) (harg2 : arg2.IsWhole)
    (arg3 : Memref sig .tc .vmem S256x256 .bf16) (harg3 : arg3.IsWhole)
    (arg4 : Memref sig .tc .vmem S1x128 .f32) (harg4 : arg4.IsWhole)
    (arg5 : Memref sig .tc .vmem S8000x128 .f32) (harg5 : arg5.IsWhole)
    (x0 x1 : Vec Ideal S8000x128 .f32) (x2 : Vec Ideal S256x256 .bf16) (x3 : Vec Ideal S1x128 .f32) :
    out0_A_4 (F := Ideal) c i arg1 harg1 arg2 harg2 arg3 harg3 arg4 harg4 arg5 harg5 x0 x1 x2 x3 = blockFn x0 x1 x2 x3 := by
  unfold out0_A_4
  rw [View.read_writes_eq_canon _ _ _ (cover0_A_4 c i arg1 harg1 arg2 harg2 arg3 harg3 arg4 harg4 arg5 harg5 x0 x1 x2 x3)]
  funext y
  refine View.canon_apply_of_pieces (blockFn x0 x1 x2 x3) _ ?_ y
    (cover0_A_4 c i arg1 harg1 arg2 harg2 arg3 harg3 arg4 harg4 arg5 harg5 x0 x1 x2 x3 y)
  unfold kernelRun0_A
  dsimp only
  intro pc hpc x
  obtain ⟨k, hk⟩ := mem_pb _ _ _ _ _ _ _ _ _ _ _ _ _ _ _ _ _ _ _ pc hpc
  rw [tripL_eq] at hk
  obtain rfl := List.mem_singleton.mp hk
  obtain ⟨p, q, rfl⟩ : ∃ (p : Fin 2000) (q : Fin 128), x = ix2 p q := ⟨x 0, x 1, eq_ix2 x⟩
  dsimp only
  rw [Cert.KernelIdeal.Chunk.pay_apply]
  simp only [View.readAt_eq_ld, harg1.read_unread, harg2.read_unread, harg3.read_unread, harg4.read_unread,
    View.ld_unit_zero (S := S256x256) hz, View.ld_unit_zero (S := S1x128) hz]
  unfold blockFn
  have hcol : (k0_off1 k) 1 = 0 := rfl
  have hq : (Rect.unit (s := S8000x128) (k0_off1 k) S2000x128.size (k0_off1_inb k)).emb (ix2 p q) 1 = q :=
    Fin.ext (by show (k0_off1 k) 1 + 1 * q.val = q.val; rw [hcol]; omega)
  rw [hq]
  refine entryStacked_congr _ _ x0 x1 x2 x3 p _ q (fun k' => congrArg x0 (funext fun a => Fin.ext ?_))
    (fun k' => congrArg x1 (funext fun a => Fin.ext ?_))
  · match a with
    | ⟨0, _⟩ => rfl
    | ⟨1, _⟩ => show (k0_off1 k) 1 + 1 * k'.val = k'.val; rw [hcol]; omega
  · match a with
    | ⟨0, _⟩ => rfl
    | ⟨1, _⟩ => show (k0_off1 k) 1 + 1 * k'.val = k'.val; rw [hcol]; omega

end Cert.KernelIdeal.Block

end
-- ==== Proof.StackedWeights.lean ====
/-
  The two arrays the host prepares before the launch, read at an entry. The stacked matrix is
  [[Vsᵀ, Wsᵀ], [Voᵀ, Woᵀ]]: the first two weights transposed and laid side by side make its upper 128 rows, the
  other two its lower 128 rows, and the change of float format is the identity on the extended reals. So its
  entry at (k, c) in the upper-left quarter is Vs(c, k), in the upper-right quarter Ws(c, k), in the lower-left
  quarter Vo(c, k) and in the lower-right quarter Wo(c, k). The weight row is the weight vector reshaped to one
  row.
-/
import proofs.«167487_j20005957665470_2_alg».proof.Proof.Gen.KernelIdeal.Frame
import proofs.«167487_j20005957665470_2_alg».proof.Proof.GatedSpec
import proofs.«167487_j20005957665470_2_alg».proof.Proof.LibConcatPair
import Idealize.ShloMosaic.Lib.StableHlo.Run
import Idealize.ShloMosaic.Lib.ValueLayout

noncomputable section

namespace Cert.KernelIdeal.Weights

open Cert.KernelIdeal Cert.KernelIdeal.Gen Cert.Gated
open Idealize.ShloMosaic Idealize.ShloMosaic.TcCoe Idealize.ShloMosaic.ValueIdx
open Idealize.SL.Sem Idealize.ShloMosaic.StableHlo

variable (m : (ℓ : Loc nD τ sig) → Buf (Elt Ideal) ℓ)

/-- The stacked matrix as the launch finds it, as one term of the four weights. -/
theorem stacked_eq (c : Dev nD) : @Eq (FVec Ideal S256x256 .bf16) (V m c main_v7)
    (truncf (F := Ideal) .bf16 (concatenate S256x256 0
      [⟨S128x256, concatenate S128x256 1
          [⟨S128x128, transpose S128x128 [1, 0] (m ((c : Thread nD τ).loc main_arg2) : FVec Ideal S128x128 .f32) transposes_S128x128_S128x128_1_0⟩,
           ⟨S128x128, transpose S128x128 [1, 0] (m ((c : Thread nD τ).loc main_arg4) : FVec Ideal S128x128 .f32) transposes_S128x128_S128x128_1_0⟩]
          concatenates_S128x128_S128x128_S128x256_d1⟩,
       ⟨S128x256, concatenate S128x256 1
          [⟨S128x128, transpose S128x128 [1, 0] (m ((c : Thread nD τ).loc main_arg3) : FVec Ideal S128x128 .f32) transposes_S128x128_S128x128_1_0⟩,
           ⟨S128x128, transpose S128x128 [1, 0] (m ((c : Thread nD τ).loc main_arg5) : FVec Ideal S128x128 .f32) transposes_S128x128_S128x128_1_0⟩]
          concatenates_S128x128_S128x128_S128x256_d1⟩]
      concatenates_S128x256_S128x256_S256x256_d0) bitsLt_bf16_f32) := by
  dsimp only [Gen.V, Gen.hostOps0]
  after_results <;> rfl

/-- The weight row as the launch finds it: the weight vector reshaped. -/
theorem row_eq (c : Dev nD) : @Eq (FVec Ideal S1x128 .f32) (V m c main_v8)
    (shapeCast S1x128 (m ((c : Thread nD τ).loc main_arg6) : FVec Ideal S128 .f32) shapeCasts_S128_S1x128) := by
  dsimp only [Gen.V, Gen.hostOps0]
  after_results <;> rfl

/-- Upper-left quarter: the first weight, transposed. -/
theorem stacked_lo_lo (c : Dev nD) (k q : Fin 128) :
    (V m c main_v7 : FVec Ideal S256x256 .bf16) (ix2 (lo k) (lo q)) = m ((c : Thread nD τ).loc main_arg2) (ix2 q k) := by
  rw [stacked_eq, truncf_apply, Cert.Lib.ConcatPair.rows_top _ _ _ k (lo k) (lo q) rfl,
    Cert.Lib.ConcatPair.cols_left _ _ _ k q (lo q) rfl, transpose_ix2_apply]

/-- Upper-right quarter: the third weight, transposed. -/
theorem stacked_lo_hi (c : Dev nD) (k q : Fin 128) :
    (V m c main_v7 : FVec Ideal S256x256 .bf16) (ix2 (lo k) (hi q)) = m ((c : Thread nD τ).loc main_arg4) (ix2 q k) := by
  rw [stacked_eq, truncf_apply, Cert.Lib.ConcatPair.rows_top _ _ _ k (lo k) (hi q) rfl,
    Cert.Lib.ConcatPair.cols_right _ _ _ k q (hi q) rfl, transpose_ix2_apply]

/-- Lower-left quarter: the second weight, transposed. -/
theorem stacked_hi_lo (c : Dev nD) (k q : Fin 128) :
    (V m c main_v7 : FVec Ideal S256x256 .bf16) (ix2 (hi k) (lo q)) = m ((c : Thread nD τ).loc main_arg3) (ix2 q k) := by
  rw [stacked_eq, truncf_apply, Cert.Lib.ConcatPair.rows_bottom _ _ _ k (hi k) (lo q) rfl,
    Cert.Lib.ConcatPair.cols_left _ _ _ k q (lo q) rfl, transpose_ix2_apply]

/-- Lower-right quarter: the fourth weight, transposed. -/
theorem stacked_hi_hi (c : Dev nD) (k q : Fin 128) :
    (V m c main_v7 : FVec Ideal S256x256 .bf16) (ix2 (hi k) (hi q)) = m ((c : Thread nD τ).loc main_arg5) (ix2 q k) := by
  rw [stacked_eq, truncf_apply, Cert.Lib.ConcatPair.rows_bottom _ _ _ k (hi k) (hi q) rfl,
    Cert.Lib.ConcatPair.cols_right _ _ _ k q (hi q) rfl, transpose_ix2_apply]

/-- The weight row's entry j is the weight vector's. -/
theorem row_apply (c : Dev nD) (j : Fin 128) :
    (V m c main_v8 : FVec Ideal S1x128 .f32) (ix2 (0 : Fin 1) j) = m ((c : Thread nD τ).loc main_arg6) (ix1 j) := by
  rw [row_eq, shapeCast_a_1a_apply]

end Cert.KernelIdeal.Weights

end
-- ==== Proof.GatedArray.lean ====
/-
  The array the kernel leaves. Grid point t handles rows 8000·t … 8000·t + 7999: its subject, object and output
  blocks sit at block row t, and the stacked matrix and the weight row are staged whole at every point. What the
  point writes back is the block function of its input blocks; read through the blocks' positions and the host's
  preparation of the stacked matrix, that is block t of the layer's array of the seven arguments. The 125 blocks
  tile the million rows (row r is in block r / 8000), so after the run the output array is the layer's array.
-/
import proofs.«167487_j20005957665470_2_alg».proof.Proof.Gen.KernelIdeal.Value
import proofs.«167487_j20005957665470_2_alg».proof.Proof.BlockPieces
import proofs.«167487_j20005957665470_2_alg».proof.Proof.StackedWeights

set_option maxRecDepth 16384

noncomputable section

namespace Cert.KernelIdeal.Layer

open Cert.KernelIdeal Cert.KernelIdeal.Gen Cert.Gated
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ) (ρ : Dev nD → PrngReg)

/-- The layer's array of the seven argument arrays on core `c`. -/
def layer (c : Dev nD) : FVec Ideal S1000000x128 .f32 :=
  Cert.Gated.out (m ((c : Thread nD τ).loc main_arg0)) (m ((c : Thread nD τ).loc main_arg1))
    (m ((c : Thread nD τ).loc main_arg2)) (m ((c : Thread nD τ).loc main_arg3))
    (m ((c : Thread nD τ).loc main_arg4)) (m ((c : Thread nD τ).loc main_arg5))
    (m ((c : Thread nD τ).loc main_arg6))

/-- The printed index maps over the 125 points: the two tables' blocks move with the output's, at block row t and
    block column 0; the stacked matrix and the weight row stay at block (0, 0). -/
theorem idx_facts : ∀ t : Fin cfg0.N,
    win0_0.index t (0 : Fin 2) = win0_4.index t (0 : Fin 2) ∧ win0_0.index t (1 : Fin 2) = 0
    ∧ win0_1.index t (0 : Fin 2) = win0_4.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The stacked matrix's block at any point is the whole stacked matrix. -/
theorem iblk2_eq (c : Dev nD) (t : Fin cfg0.N) : (iblk m c 2 t : FVec Ideal S256x256 .bf16) = V m c main_v7 := by
  obtain ⟨-, -, -, -, e20, e21, -, -, -, -⟩ := idx_facts t
  funext y
  show V m c main_v7 (((cfg0.win 2).blk t).view.emb y) = V m c main_v7 y
  refine congrArg _ (funext fun a => Fin.ext ?_)
  match a with
  | ⟨0, _⟩ => show win0_2.index t (0 : Fin 2) * 256 + 1 * (y 0).val = (y 0).val; omega
  | ⟨1, _⟩ => show win0_2.index t (1 : Fin 2) * 256 + 1 * (y 1).val = (y 1).val; omega

/-- The weight row's block at any point is the whole weight row. -/
theorem iblk3_eq (c : Dev nD) (t : Fin cfg0.N) : (iblk m c 3 t : FVec Ideal S1x128 .f32) = V m c main_v8 := by
  obtain ⟨-, -, -, -, -, -, e30, e31, -, -⟩ := idx_facts t
  funext y
  show V m c main_v8 (((cfg0.win 3).blk t).view.emb y) = V m c main_v8 y
  refine congrArg _ (funext fun a => Fin.ext ?_)
  match a with
  | ⟨0, _⟩ => show win0_3.index t (0 : Fin 2) * 1 + 1 * (y 0).val = (y 0).val; omega
  | ⟨1, _⟩ => show win0_3.index t (1 : Fin 2) * 128 + 1 * (y 1).val = (y 1).val; omega

/-- WHAT POINT `t` WRITES BACK is block `t` of the layer's array. -/
theorem flushed_eq (c : Dev nD) (t : Fin cfg0.N) :
    (dats m 0 c).flushed 4 t = ((cfg0.win 4).blk t).view.read (Elt Ideal) (layer m c) := by
  rw [Cert.KernelIdeal.Value.flushed4_A, Cert.KernelIdeal.Block.out_eq]
  obtain ⟨e00, e01, e10, e11, -, -, -, -, e40, e41⟩ := idx_facts t
  funext j
  show Cert.KernelIdeal.Block.blockFn (iblk m c 0 t) (iblk m c 1 t) (iblk m c 2 t) (iblk m c 3 t) j
    = layer m c (((cfg0.win 4).blk t).view.emb j)
  unfold Cert.KernelIdeal.Block.blockFn layer Cert.Gated.out
  rw [iblk2_eq, iblk3_eq]
  have hq : (((cfg0.win 4).blk t).view.emb j) 1 = j 1 :=
    Fin.ext (by show win0_4.index t (1 : Fin 2) * 128 + 1 * (j 1).val = (j 1).val; omega)
  rw [hq]
  refine (entryStacked_congr (iblk m c 0 t) (iblk m c 1 t) (m ((c : Thread nD τ).loc main_arg0))
    (m ((c : Thread nD τ).loc main_arg1)) (V m c main_v7) (V m c main_v8) (j 0) ((((cfg0.win 4).blk t).view.emb j) 0) (j 1)
    (fun k => ?_) (fun k => ?_)).trans
    (entryStacked_eq _ _ _ _ _ _ _ _ _ (Cert.KernelIdeal.Weights.stacked_lo_lo m c) (Cert.KernelIdeal.Weights.stacked_hi_lo m c)
      (Cert.KernelIdeal.Weights.stacked_lo_hi m c) (Cert.KernelIdeal.Weights.stacked_hi_hi m c)
      (Cert.KernelIdeal.Weights.row_apply m c) _ _)
  · show V m c main_arg0 (((cfg0.win 0).blk t).view.emb (ix2 (j 0) k)) = _
    rw [V_main_arg0]
    refine congrArg _ (funext fun a => Fin.ext ?_)
    match a with
    | ⟨0, _⟩ => show win0_0.index t (0 : Fin 2) * 8000 + 1 * (j 0).val = win0_4.index t (0 : Fin 2) * 8000 + 1 * (j 0).val; omega
    | ⟨1, _⟩ => show win0_0.index t (1 : Fin 2) * 128 + 1 * k.val = k.val; omega
  · show V m c main_arg1 (((cfg0.win 1).blk t).view.emb (ix2 (j 0) k)) = _
    rw [V_main_arg1]
    refine congrArg _ (funext fun a => Fin.ext ?_)
    match a with
    | ⟨0, _⟩ => show win0_1.index t (0 : Fin 2) * 8000 + 1 * (j 0).val = win0_4.index t (0 : Fin 2) * 8000 + 1 * (j 0).val; omega
    | ⟨1, _⟩ => show win0_1.index t (1 : Fin 2) * 128 + 1 * k.val = k.val; omega

/-- An index of the output array is in point `t`'s block iff each coordinate is in the block's range. -/
theorem mem_blk (t : Fin cfg0.N) (i : S1000000x128.Idx) :
    i ∈ ((cfg0.win 4).blk t).view.set ↔ ∀ a : Fin 2, win0_4.index t a * S8000x128.size a ≤ (i a).val
      ∧ (i a).val < win0_4.index t a * S8000x128.size a + S8000x128.size a := by
  show i ∈ ((View.whole main_v9).slice (win0_4.rect t)).set ↔ _
  rw [View.set_slice_whole, Rect.mem_set_unit]
  exact Iff.rfl

/-- Row r of the output is in block r / 8000: the blocks tile the array. -/
theorem cover (i : S1000000x128.Idx) :
    ∃ t : Fin cfg0.N, (cfg0.win 4).flush t = true ∧ i ∈ ((cfg0.win 4).blk t).view.set := by
  have hi0 : (i 0).val < 1000000 := (i 0).isLt
  have hi1 : (i 1).val < 128 := (i 1).isLt
  have hN : cfg0.N = 125 := N_0
  let t : Fin cfg0.N := ⟨(i 0).val / 8000, by rw [hN]; omega⟩
  have ht : t.val = (i 0).val / 8000 := rfl
  obtain ⟨-, -, -, -, -, -, -, -, e40, e41⟩ := idx_facts t
  refine ⟨t, flush0_4 t, ?_⟩
  rw [mem_blk]
  intro a
  match a with
  | ⟨0, _⟩ =>
    show win0_4.index t (0 : Fin 2) * 8000 ≤ (i 0).val ∧ (i 0).val < win0_4.index t (0 : Fin 2) * 8000 + 8000
    omega
  | ⟨1, _⟩ =>
    show win0_4.index t (1 : Fin 2) * 128 ≤ (i 1).val ∧ (i 1).val < win0_4.index t (1 : Fin 2) * 128 + 128
    omega

/-- THE OUTPUT ARRAY after the run is the layer's array of the arguments. -/
theorem final (c : Dev nD) : (dats m 0 c).arrAt 4 cfg0.N = layer m c :=
  (dats m 0 c).arrAt_eq_of_cover 4 (layer m c) (fun t _ => flushed_eq m c t) cover

/-- The frame run re-posted: the result at the layer's array of the arguments, the arguments unchanged. -/
theorem run : θ_run defs (onTc (τ := τ) (main (F := Ideal))) ⟨m, fun _ => 0, ρ⟩ fun r => ∀ c : Dev nD,
      r.2.mem ((c : Thread nD τ).loc main_v9) = layer m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩)
    (Cert.KernelIdeal.Value.run_blocks m ρ)

end Cert.KernelIdeal.Layer

end
-- ==== Proof.lean ====
/-
  A gated interaction of two embedding tables, computed in row blocks, against its plain form.

  For subject rows s and object rows o (a million rows of 128 entries), square weights Vs, Vo, Ws, Wo and a weight
  vector w, the layer's entry at row r and column c is

      σ( (s·Vsᵀ)(r,c) + (o·Voᵀ)(r,c) )  ·  max( (s·Wsᵀ)(r,c) + (o·Woᵀ)(r,c) + s(r,c) · ⟨o(r,·), w⟩ , 0 ),

  with σ x = 1 / (1 + e^(−x)) (Proof/GatedSpec.lean). The reference computes exactly this, one operation after
  another (Proof/RefGated.lean). The kernel stacks the four transposed weights into one 256 × 256 matrix
  [[Vsᵀ, Wsᵀ], [Voᵀ, Woᵀ]] on the host (Proof/StackedWeights.lean), and for each block of 8000 rows, chunk of 2000
  rows by chunk, multiplies [s | o] by that matrix, cuts the product into its left and right halves, and finishes
  the entry lane by lane (Proof/ChunkPayload.lean). The four chunks' values are one function of the block
  restricted to four rectangles that tile it (Proof/BlockPieces.lean), and the 125 blocks tile the array
  (Proof/GatedArray.lean). The one law that joins the two sides is that a sum of 256 products is the sum of its
  first 128 and its last 128, which holds on the extended reals with no finiteness asked of any entry; the changes
  of float format are the identity there, and the logistic function is the quotient 1 / (1 + e^(−x)) by
  definition. The idealized kernel is the kernel's own text read on the extended reals, so nothing is owed for
  that step.
-/
import proofs.«167487_j20005957665470_2_alg».proof.Defs
import proofs.«167487_j20005957665470_2_alg».proof.Proof.Gen.Kernel
import proofs.«167487_j20005957665470_2_alg».proof.Proof.Gen.Kernel.Skeleton
import proofs.«167487_j20005957665470_2_alg».proof.Proof.Gen.Kernel.Loops
import proofs.«167487_j20005957665470_2_alg».proof.Proof.Gen.Kernel.Launch
import proofs.«167487_j20005957665470_2_alg».proof.Proof.Gen.Kernel.Points
import proofs.«167487_j20005957665470_2_alg».proof.Proof.Gen.Kernel.Frame
import proofs.«167487_j20005957665470_2_alg».proof.Proof.Gen.KernelIdeal
import proofs.«167487_j20005957665470_2_alg».proof.Proof.Gen.KernelIdeal.Skeleton
import proofs.«167487_j20005957665470_2_alg».proof.Proof.Gen.KernelIdeal.Loops
import proofs.«167487_j20005957665470_2_alg».proof.Proof.Gen.KernelIdeal.Launch
import proofs.«167487_j20005957665470_2_alg».proof.Proof.Gen.KernelIdeal.Points
import proofs.«167487_j20005957665470_2_alg».proof.Proof.Gen.KernelIdeal.Frame
import proofs.«167487_j20005957665470_2_alg».proof.Proof.Gen.ReferenceIdeal
import proofs.«167487_j20005957665470_2_alg».proof.Proof.Gen.Pre_finite_inputs
import proofs.«167487_j20005957665470_2_alg».proof.Proof.Gen.KernelIdeal.Value
import proofs.«167487_j20005957665470_2_alg».proof.Proof.Gen.ReferenceIdeal.Run
import proofs.«167487_j20005957665470_2_alg».proof.Proof.Gen.ReferenceIdeal.Read
import proofs.«167487_j20005957665470_2_alg».proof.Proof.RefGated
import proofs.«167487_j20005957665470_2_alg».proof.Proof.GatedArray
import Idealize.ShloMosaic.Adequacy
import Idealize.ShloMosaic.Init

noncomputable section

namespace Cert.Proof

open Idealize.ShloMosaic Idealize.SL.Sem Cert.Kernel

/-- The kernel as printed runs to the end and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealized kernel is the kernel's own text: no operation was rewritten. -/
theorem preserves : Cert.preserves_Kernel_KernelIdeal := trivial

/-- On the extended reals the kernel's output array and the reference's result are both the layer's array of
    arguments that agree. -/
theorem algebraic : Cert.algebraic_KernelIdeal_ReferenceIdeal := by
  intro m ρ m' ρ' _ hagree
  refine ⟨fun c => Cert.KernelIdeal.Layer.layer m c, Cert.KernelIdeal.Layer.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1,
    (hagree c).2.2.2.2.2.1, (hagree c).2.2.2.2.2.2]
  exact (Cert.ReferenceIdeal.Read.val_main_v25_eq _ _ _ _ _ _ _).trans
    (Cert.ReferenceIdeal.RefValue.ref_eq _ _ _ _ _ _ _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
